-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S128x40 .f32) (main_arg5 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩

abbrev nBuf : Space → Nat
  | .hbm => 82
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x40, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x40, .f32⟩
  | .hbm, ⟨72, _⟩ => ⟨S850000x1, .f32⟩
  | .hbm, ⟨73, _⟩ => ⟨S850000x40, .f32⟩
  | .hbm, ⟨74, _⟩ => ⟨S850000x40, .f32⟩
  | .hbm, ⟨75, _⟩ => ⟨S_, .f32⟩
  | .hbm, ⟨76, _⟩ => ⟨S50000x40, .f32⟩
  | .hbm, ⟨77, _⟩ => ⟨S850000x1, .i32⟩
  | .hbm, ⟨78, _⟩ => ⟨S50000x40, .f32⟩
  | .hbm, ⟨79, _⟩ => ⟨S1x40, .f32⟩
  | .hbm, ⟨80, _⟩ => ⟨S50000x40, .f32⟩
  | .hbm, ⟨81, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 108
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S850000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x40, .f32⟩
  | .hbm, ⟨63, _⟩ => ⟨S_, .f32⟩
  | .hbm, ⟨64, _⟩ => ⟨S850000, .f32⟩
  | .hbm, ⟨65, _⟩ => ⟨S_, .f32⟩
  | .hbm, ⟨66, _⟩ => ⟨S50000, .f32⟩
  | .hbm, ⟨67, _⟩ => ⟨S850000x1, .i32⟩
  | .hbm, ⟨68, _⟩ => ⟨S50000, .f32⟩
  | .hbm, ⟨69, _⟩ => ⟨S50000, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x40, .f32⟩
  | .hbm, ⟨98, _⟩ => ⟨S850000x1, .f32⟩
  | .hbm, ⟨99, _⟩ => ⟨S850000x40, .f32⟩
  | .hbm, ⟨100, _⟩ => ⟨S850000x40, .f32⟩
  | .hbm, ⟨101, _⟩ => ⟨S_, .f32⟩
  | .hbm, ⟨102, _⟩ => ⟨S50000x40, .f32⟩
  | .hbm, ⟨103, _⟩ => ⟨S850000x1, .i32⟩
  | .hbm, ⟨104, _⟩ => ⟨S50000x40, .f32⟩
  | .hbm, ⟨105, _⟩ => ⟨S1x40, .f32⟩
  | .hbm, ⟨106, _⟩ => ⟨S50000x40, .f32⟩
  | .hbm, ⟨107, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel program's run with its RESULT array named.

  The program is six stretches in a row: host operations (the edge lists with their self loops, the
  degrees, the normalisation coefficients), the first blocked matrix product, host operations (gather,
  scale, scatter-add, bias, and the rectifier), the second blocked matrix product, and the last host
  operations (gather, scale, scatter-add, bias).  The contents of every buffer at each boundary are a
  fold from the launch memory (`Gen.W0` … `Gen.W6`).  Here the run is stated once more with a post that
  also says what the result buffer holds at the end: the last fold `Gen.W6` read at the result.  The
  arguments end unchanged, as in the frame.
-/
import proofs.«170224_j34282428957176_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds
    the last boundary's contents read at the result, and every argument array is as launched. -/
theorem run_named : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.BlockProduct0.lean ====
/-
  The first kernel's body at one grid point, read at an index.

  The body loads a block `a` of 2000 rows and 512 columns and the whole weight matrix `w` of 512 rows and
  128 columns, and stores their matrix product accumulated into zero.  On the extended reals a change of
  float format is the identity and the product into a zero accumulator is the plain sum over the contracted
  axis, so entry (p, q) of what the body stores is  ∑ k, a (p, k) · w (k, q).
-/
import proofs.«170224_j34282428957176_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct0

open Cert.KernelIdeal Cert.KernelIdeal.Gen Idealize.ShloMosaic

/-- The block product's dimension numbers: the left operand's axis 1 is contracted with the right operand's axis 0. -/
abbrev dims : DotDims S2000x512 S512x128 S2000x128 := dot_S2000x512_S512x128_S2000x128_1_0_0_1_n_n

/-- The left operand's entry that meets output entry `y` at contraction position `k`: row `y 0`, column `k`. -/
abbrev lhsAt (y : S2000x128.Idx) (k : Fin 512) : S2000x512.Idx := fun a => match a with
  | ⟨0, _⟩ => ⟨(y 0).val, (y 0).isLt⟩
  | ⟨1, _⟩ => ⟨k.val, k.isLt⟩
/-- The right operand's entry that meets it: row `k`, column `y 1`. -/
abbrev rhsAt (y : S2000x128.Idx) (k : Fin 512) : S512x128.Idx := fun a => match a with
  | ⟨0, _⟩ => ⟨k.val, k.isLt⟩
  | ⟨1, _⟩ => ⟨(y 1).val, (y 1).isLt⟩

theorem lhs_row (y : S2000x128.Idx) (q : dims.contr.Idx) : (dims.lhsIdx y q 0).val = (y 0).val := by
  unfold DotDims.lhsIdx
  rw [dif_neg (show ¬(0 : Fin S2000x512.rank) ∈ dims.lhsBatch by decide), dif_pos (show (0 : Fin S2000x512.rank) ∈ dims.lhsNonContracting by decide)]
  rfl
theorem lhs_col (y : S2000x128.Idx) (q : dims.contr.Idx) : (dims.lhsIdx y q 1).val = (q ⟨0, by decide⟩).val :=
  dims.lhsIdx_val_of_single rfl y q
theorem rhs_row (y : S2000x128.Idx) (q : dims.contr.Idx) : (dims.rhsIdx y q 0).val = (q ⟨0, by decide⟩).val :=
  dims.rhsIdx_val_of_single rfl y q
theorem rhs_col (y : S2000x128.Idx) (q : dims.contr.Idx) : (dims.rhsIdx y q 1).val = (y 1).val := by
  unfold DotDims.rhsIdx
  rw [dif_neg (show ¬(1 : Fin S512x128.rank) ∈ dims.rhsBatch by decide), dif_pos (show (1 : Fin S512x128.rank) ∈ dims.rhsNonContracting by decide)]
  rfl

/-- What the body stores, entry by entry: the sum over the contracted axis of the products. -/
theorem stored_apply (a : Vec Ideal S2000x512 .f32) (w : Vec Ideal S512x128 .f32) (y : S2000x128.Idx) :
    k0_pay1 (F := Ideal) a w y = ∑ k : Fin 512, a (lhsAt y k) * w (rhsAt y k) := by
  unfold k0_pay1
  refine (Ideal.matmul_constant_zero_apply dims none _ _ y).trans ?_
  rw [← Equiv.sum_comp (ValueIdx.contrEquiv1 dims 512 rfl rfl).symm]
  refine Finset.sum_congr rfl fun k _ => ?_
  have hk := ValueIdx.contrEquiv1_symm_val dims 512 rfl rfl k
  have el : dims.lhsIdx y ((ValueIdx.contrEquiv1 dims 512 rfl rfl).symm k) = lhsAt y k := funext fun b => Fin.ext (by
    match b with
    | ⟨0, _⟩ => exact lhs_row _ _
    | ⟨1, _⟩ => exact (lhs_col _ _).trans hk)
  have er : dims.rhsIdx y ((ValueIdx.contrEquiv1 dims 512 rfl rfl).symm k) = rhsAt y k := funext fun b => Fin.ext (by
    match b with
    | ⟨0, _⟩ => exact (rhs_row _ _).trans hk
    | ⟨1, _⟩ => exact rhs_col _ _)
  rw [el, er]
  rfl

end Cert.KernelIdeal.BlockProduct0

end
-- ==== Proof.RefProduct.lean ====
/-
  The reference's two matrix products as functions of ANY left operand.

  The reference multiplies the node features by the first weight matrix, and later the rectified hidden
  features by the second one.  On the extended reals each product, read at entry (i, j), is the sum over the
  contracted axis of the left operand's row i against the right operand's column j.  The generated reading
  of the second product is stated only at the reference's own hidden features; here it is stated for every
  left operand, so that it can be met by the kernel's blocks of the same array.
-/
import proofs.«170224_j34282428957176_1_alg».proof.Proof.Gen.ReferenceIdeal.Read

noncomputable section

namespace Cert.ReferenceIdeal.Products

open Cert.ReferenceIdeal Cert.ReferenceIdeal.Gen Cert.ReferenceIdeal.Read Idealize.ShloMosaic

/-- Features (50000 × 512) times the first weights (512 × 128). -/
def first (a : FVec Ideal S50000x512 .f32) (w : FVec Ideal S512x128 .f32) :
    FVec Ideal S50000x128 .f32 :=
  Host.dotGeneral (F := Ideal) dot_S50000x512_S512x128_S50000x128_1_0_0_1_n_n none a w

/-- Hidden features (50000 × 128) times the second weights (128 × 40). -/
def second (h : FVec Ideal S50000x128 .f32) (w : FVec Ideal S128x40 .f32) :
    FVec Ideal S50000x40 .f32 :=
  Host.dotGeneral (F := Ideal) dot_S50000x128_S128x40_S50000x40_1_0_0_1_n_n none h w

/-- Entry (i 0, i 1) of the first product: row `i 0` of the features against column `i 1` of the weights. -/
theorem first_apply (a : FVec Ideal S50000x512 .f32) (w : FVec Ideal S512x128 .f32)
    (i : S50000x128.Idx) : first a w i = ∑ k : Fin 512, a (lidx_main_v7 i k) * w (ridx_main_v7 i k) :=
  val_main_v7_apply a w i

/-- Entry (i 0, i 1) of the second product, for any left operand. -/
theorem second_apply (h : FVec Ideal S50000x128 .f32) (w : FVec Ideal S128x40 .f32)
    (i : S50000x40.Idx) : second h w i = ∑ k : Fin 128, h (lidx_main_v45 i k) * w (ridx_main_v45 i k) := by
  unfold second
  simp only [Host.dotGeneral]
  rw [Ideal.dotGeneral_apply, ← Equiv.sum_comp (ValueIdx.contrEquiv1 dot_S50000x128_S128x40_S50000x40_1_0_0_1_n_n 128 rfl rfl).symm]
  refine Finset.sum_congr rfl fun k _ => ?_
  have hk := ValueIdx.contrEquiv1_symm_val dot_S50000x128_S128x40_S50000x40_1_0_0_1_n_n 128 rfl rfl k
  have el : dot_S50000x128_S128x40_S50000x40_1_0_0_1_n_n.lhsIdx i ((ValueIdx.contrEquiv1 dot_S50000x128_S128x40_S50000x40_1_0_0_1_n_n 128 rfl rfl).symm k) = lidx_main_v45 i k := funext fun a => Fin.ext (by
    match a with
    | ⟨0, _⟩ => exact lhs_main_v45_0 _ _
    | ⟨1, _⟩ => exact (lhs_main_v45_1 _ _).trans hk)
  have er : dot_S50000x128_S128x40_S50000x40_1_0_0_1_n_n.rhsIdx i ((ValueIdx.contrEquiv1 dot_S50000x128_S128x40_S50000x40_1_0_0_1_n_n 128 rfl rfl).symm k) = ridx_main_v45 i k := funext fun a => Fin.ext (by
    match a with
    | ⟨0, _⟩ => exact (rhs_main_v45_0 _ _).trans hk
    | ⟨1, _⟩ => exact rhs_main_v45_1 _ _)
  rw [el, er]

end Cert.ReferenceIdeal.Products

end
-- ==== Proof.Region0.lean ====
/-
  From blocks to the array: the first blocked matrix product writes the reference's whole product.

  The grid has 25 points.  Point t stages rows 2000·t … 2000·t + 1999 of the left array (all 512 columns), the
  whole 512 × 128 weight matrix, and writes back rows 2000·t … 2000·t + 1999 of the result.  By the block
  reading, entry (p, q) of what point t writes back is  ∑ k, left (2000·t + p, k) · weights (k, q), which is
  entry (2000·t + p, q) of the whole product of the two arrays as the region finds them.  The 25 row blocks
  cover the 50000 rows, so after the region the result array IS the whole product.
  Everything is stated at any contents `V` of the buffers at the region's entry.
-/
import proofs.«170224_j34282428957176_1_alg».proof.Proof.Gen.KernelIdeal.Frame
import proofs.«170224_j34282428957176_1_alg».proof.Proof.BlockProduct0
import proofs.«170224_j34282428957176_1_alg».proof.Proof.RefProduct
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the left array and the weights as the region finds them. -/
abbrev whole (c : Dev nD) : Buf (Elt Ideal) ((c : Thread nD τ).loc main_v27) :=
  Cert.ReferenceIdeal.Products.first (V c main_arg0) (V c main_arg2)

/-- The printed index maps, decided over the 25 grid points: the left window and the result window sit at row block
    `t`, column block 0; the weights' window is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  funext y
  refine (BlockProduct0.stored_apply (iblk0 V c 0 t) (iblk0 V c 1 t) y).trans ?_
  refine Eq.trans ?_ (Cert.ReferenceIdeal.Products.first_apply (V c main_arg0) (V c main_arg2) (((cfg0.win 2).blk t).view.emb y)).symm
  refine Finset.sum_congr rfl fun k _ => ?_
  have hl : ((cfg0.win 0).blk t).view.emb (BlockProduct0.lhsAt y k)
      = Cert.ReferenceIdeal.Read.lidx_main_v7 (((cfg0.win 2).blk t).view.emb y) k := by
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 512 + 1 * k.val = k.val; omega
  have hr : ((cfg0.win 1).blk t).view.emb (BlockProduct0.rhsAt y k)
      = Cert.ReferenceIdeal.Read.ridx_main_v7 (((cfg0.win 2).blk t).view.emb y) k := by
    funext a; apply Fin.ext
    match a with
    | ⟨0, _⟩ => show win0_1.index t (0 : Fin 2) * 512 + 1 * k.val = k.val; omega
    | ⟨1, _⟩ => show win0_1.index t (1 : Fin 2) * 128 + 1 * (y 1).val = win0_2.index t (1 : Fin 2) * 128 + 1 * (y 1).val; omega
  rw [← hl, ← hr]
  rfl

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Every entry of the result array lies in the block of the point that holds its row: point `row / 2000`. -/
theorem cover (i : S50000x128.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- After the region the result array is the whole product. -/
theorem result (c : Dev nD) : (dat0 V c).arrAt 2 cfg0.N = whole V c :=
  (dat0 V c).arrAt_eq_of_cover 2 (whole V c) (fun t _ => flushed_eq V c t) cover

end Cert.KernelIdeal.Region0

end
-- ==== Proof.BlockProduct1.lean ====
/-
  The second kernel's body at one grid point, read at an index.

  The body loads a block `a` of 2000 rows and 128 columns and the whole weight matrix `w` of 128 rows and
  40 columns, and stores their matrix product accumulated into zero.  On the extended reals a change of
  float format is the identity and the product into a zero accumulator is the plain sum over the contracted
  axis, so entry (p, q) of what the body stores is  ∑ k, a (p, k) · w (k, q).
-/
import proofs.«170224_j34282428957176_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct1

open Cert.KernelIdeal Cert.KernelIdeal.Gen Idealize.ShloMosaic

/-- The block product's dimension numbers: the left operand's axis 1 is contracted with the right operand's axis 0. -/
abbrev dims : DotDims S2000x128 S128x40 S2000x40 := dot_S2000x128_S128x40_S2000x40_1_0_0_1_n_n

/-- The left operand's entry that meets output entry `y` at contraction position `k`: row `y 0`, column `k`. -/
abbrev lhsAt (y : S2000x40.Idx) (k : Fin 128) : S2000x128.Idx := fun a => match a with
  | ⟨0, _⟩ => ⟨(y 0).val, (y 0).isLt⟩
  | ⟨1, _⟩ => ⟨k.val, k.isLt⟩
/-- The right operand's entry that meets it: row `k`, column `y 1`. -/
abbrev rhsAt (y : S2000x40.Idx) (k : Fin 128) : S128x40.Idx := fun a => match a with
  | ⟨0, _⟩ => ⟨k.val, k.isLt⟩
  | ⟨1, _⟩ => ⟨(y 1).val, (y 1).isLt⟩

theorem lhs_row (y : S2000x40.Idx) (q : dims.contr.Idx) : (dims.lhsIdx y q 0).val = (y 0).val := by
  unfold DotDims.lhsIdx
  rw [dif_neg (show ¬(0 : Fin S2000x128.rank) ∈ dims.lhsBatch by decide), dif_pos (show (0 : Fin S2000x128.rank) ∈ dims.lhsNonContracting by decide)]
  rfl
theorem lhs_col (y : S2000x40.Idx) (q : dims.contr.Idx) : (dims.lhsIdx y q 1).val = (q ⟨0, by decide⟩).val :=
  dims.lhsIdx_val_of_single rfl y q
theorem rhs_row (y : S2000x40.Idx) (q : dims.contr.Idx) : (dims.rhsIdx y q 0).val = (q ⟨0, by decide⟩).val :=
  dims.rhsIdx_val_of_single rfl y q
theorem rhs_col (y : S2000x40.Idx) (q : dims.contr.Idx) : (dims.rhsIdx y q 1).val = (y 1).val := by
  unfold DotDims.rhsIdx
  rw [dif_neg (show ¬(1 : Fin S128x40.rank) ∈ dims.rhsBatch by decide), dif_pos (show (1 : Fin S128x40.rank) ∈ dims.rhsNonContracting by decide)]
  rfl

/-- What the body stores, entry by entry: the sum over the contracted axis of the products. -/
theorem stored_apply (a : Vec Ideal S2000x128 .f32) (w : Vec Ideal S128x40 .f32) (y : S2000x40.Idx) :
    k1_pay1 (F := Ideal) a w y = ∑ k : Fin 128, a (lhsAt y k) * w (rhsAt y k) := by
  unfold k1_pay1
  rw [shapeCast_self]
  refine (Ideal.matmul_constant_zero_apply dims none _ _ y).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx y ((ValueIdx.contrEquiv1 dims 128 rfl rfl).symm k) = lhsAt y k := funext fun b => Fin.ext (by
    match b with
    | ⟨0, _⟩ => exact lhs_row _ _
    | ⟨1, _⟩ => exact (lhs_col _ _).trans hk)
  have er : dims.rhsIdx y ((ValueIdx.contrEquiv1 dims 128 rfl rfl).symm k) = rhsAt y k := funext fun b => Fin.ext (by
    match b with
    | ⟨0, _⟩ => exact (rhs_row _ _).trans hk
    | ⟨1, _⟩ => exact rhs_col _ _)
  rw [el, er]
  rfl

end Cert.KernelIdeal.BlockProduct1

end
-- ==== Proof.Region1.lean ====
/-
  From blocks to the array: the second blocked matrix product writes the reference's whole product.

  The grid has 25 points.  Point t stages rows 2000·t … 2000·t + 1999 of the left array (all 128 columns), the
  whole 128 × 40 weight matrix, and writes back rows 2000·t … 2000·t + 1999 of the result.  By the block
  reading, entry (p, q) of what point t writes back is  ∑ k, left (2000·t + p, k) · weights (k, q), which is
  entry (2000·t + p, q) of the whole product of the two arrays as the region finds them.  The 25 row blocks
  cover the 50000 rows, so after the region the result array IS the whole product.
  Everything is stated at any contents `V` of the buffers at the region's entry.
-/
import proofs.«170224_j34282428957176_1_alg».proof.Proof.Gen.KernelIdeal.Frame
import proofs.«170224_j34282428957176_1_alg».proof.Proof.BlockProduct1
import proofs.«170224_j34282428957176_1_alg».proof.Proof.RefProduct
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the left array and the weights as the region finds them. -/
abbrev whole (c : Dev nD) : Buf (Elt Ideal) ((c : Thread nD τ).loc main_v45) :=
  Cert.ReferenceIdeal.Products.second (V c main_v44) (V c main_arg4)

/-- The printed index maps, decided over the 25 grid points: the left window and the result window sit at row block
    `t`, column block 0; the weights' window is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x40) hz]
  obtain ⟨e0, e1, e2, e3, e4, e5⟩ := idx_facts t
  funext y
  refine (BlockProduct1.stored_apply (iblk1 V c 0 t) (iblk1 V c 1 t) y).trans ?_
  refine Eq.trans ?_ (Cert.ReferenceIdeal.Products.second_apply (V c main_v44) (V c main_arg4) (((cfg1.win 2).blk t).view.emb y)).symm
  refine Finset.sum_congr rfl fun k _ => ?_
  have hl : ((cfg1.win 0).blk t).view.emb (BlockProduct1.lhsAt y k)
      = Cert.ReferenceIdeal.Read.lidx_main_v45 (((cfg1.win 2).blk t).view.emb y) k := by
    funext a; apply Fin.ext
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 128 + 1 * k.val = k.val; omega
  have hr : ((cfg1.win 1).blk t).view.emb (BlockProduct1.rhsAt y k)
      = Cert.ReferenceIdeal.Read.ridx_main_v45 (((cfg1.win 2).blk t).view.emb y) k := by
    funext a; apply Fin.ext
    match a with
    | ⟨0, _⟩ => show win1_1.index t (0 : Fin 2) * 128 + 1 * k.val = k.val; omega
    | ⟨1, _⟩ => show win1_1.index t (1 : Fin 2) * 40 + 1 * (y 1).val = win1_2.index t (1 : Fin 2) * 40 + 1 * (y 1).val; omega
  rw [← hl, ← hr]
  rfl

/-- An index of the result array is in point `t`'s block iff each coordinate is in the block's range on its axis. -/
theorem mem_blk (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v45).slice (win1_2.rect t)).set ↔ _
  rw [View.set_slice_whole, Rect.mem_set_unit]
  exact Iff.rfl

/-- Every entry of the result array lies in the block of the point that holds its row: point `row / 2000`. -/
theorem cover (i : S50000x40.Idx) : ∃ t : Fin cfg1.N, (cfg1.win 2).flush t = true ∧ i ∈ ((cfg1.win 2).blk t).view.set := by
  have hN : cfg1.N = 25 := N_1
  have hi0 : (i 0).val < 50000 := (i 0).isLt
  have hi1 : (i 1).val < 40 := (i 1).isLt
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 40 ≤ (i 1).val ∧ (i 1).val < win1_2.index _ (1 : Fin 2) * 40 + 40
    rw [e5]; omega

/-- After the region the result array is the whole product. -/
theorem result (c : Dev nD) : (dat1 V c).arrAt 2 cfg1.N = whole V c :=
  (dat1 V c).arrAt_eq_of_cover 2 (whole V c) (fun t _ => flushed_eq V c t) cover

end Cert.KernelIdeal.Region1

end
-- ==== Proof.Layers.lean ====
/-
  The two graph-convolution layers as functions of the matrix product they consume.

  With the edge list `e` (self loops appended), `row` / `col` its two halves and `deg` the number of edges
  arriving at each node, the normalisation coefficient of edge j is  rsqrt (deg (row j)) · rsqrt (deg (col j)).
  A layer takes a node-feature matrix `h` (already multiplied by its weights), gathers row `col j` of `h` for
  every edge j, scales it by the edge's coefficient, adds the scaled rows into row `row j` of a zero matrix,
  and adds the bias to every row.  The first layer then takes the maximum with zero.
      hidden h e b = max (scatter-add (gather h col · coef) row + b) 0          (width 128)
      out    h e b =      scatter-add (gather h col · coef) row + b             (width 40)
  The edge-dependent parts (row, wrapped col, the coefficients broadcast along the feature axis, the zero
  matrices, the bias rows) are the reference's own stages, which depend on `e` and the bias only.
  The reference is  out (second (hidden (first x W₁) e b₁) W₂) e b₂ : the two equations below, by unfolding
  the stages.  The reference computes the coefficients a second time for its second layer, by the same
  operations of the same edge list: the same function (`coef_again`).
-/
import proofs.«170224_j34282428957176_1_alg».proof.Proof.Gen.ReferenceIdeal.Read
import proofs.«170224_j34282428957176_1_alg».proof.Proof.RefProduct

noncomputable section

namespace Cert.ReferenceIdeal.Layers

open Cert.ReferenceIdeal Cert.ReferenceIdeal.Gen Cert.ReferenceIdeal.Read Cert.ReferenceIdeal.Products Idealize.ShloMosaic

/-- The first layer before the rectifier: aggregate over the edges, add the bias. -/
def preact (h : FVec Ideal S50000x128 .f32) (e : IVec S2x800000 32) (b : FVec Ideal S128 .f32) : FVec Ideal S50000x128 .f32 :=
  addf
    (Host.scatterAdd (F := Ideal) scatter_S50000x128_S850000x1_S850000x128_1_0_0_1 (val_main_v38 (F := Ideal)) (val_main_v39 (F := Ideal) e)
      (mulf (Host.gather gather_S50000x128_S850000x1_S850000x128_1_0_n_n_0_1_1128 h (val_main_v33 (F := Ideal) e)) (val_main_v36 (F := Ideal) e)))
    (val_main_v42 (F := Ideal) b)

/-- The rectifier: the maximum with zero, entry by entry. -/
def relu (a : FVec Ideal S50000x128 .f32) : FVec Ideal S50000x128 .f32 :=
  maximumf a (val_main_call0_v0 (F := Ideal))

/-- The first layer after its product: aggregate over the edges, add the bias, rectify. -/
def hidden (h : FVec Ideal S50000x128 .f32) (e : IVec S2x800000 32) (b : FVec Ideal S128 .f32) : FVec Ideal S50000x128 .f32 :=
  relu (preact h e b)

/-- The second layer after its product: aggregate over the edges, add the bias. -/
def out (h : FVec Ideal S50000x40 .f32) (e : IVec S2x800000 32) (b : FVec Ideal S40 .f32) : FVec Ideal S50000x40 .f32 :=
  addf
    (Host.scatterAdd (F := Ideal) scatter_S50000x40_S850000x1_S850000x40_1_0_0_1 (val_main_v76 (F := Ideal)) (val_main_v77 (F := Ideal) e)
      (mulf (Host.gather gather_S50000x40_S850000x1_S850000x40_1_0_n_n_0_1_140 h (val_main_v71 (F := Ideal) e)) (val_main_v74 (F := Ideal) e)))
    (val_main_v80 (F := Ideal) b)

/-- The reference's rectified hidden features are the first layer of its first product. -/
theorem stage_hidden (x0 : FVec Ideal S50000x512 .f32) (x1 : IVec S2x800000 32) (x2 : FVec Ideal S512x128 .f32) (x3 : FVec Ideal S128 .f32) :
    val_main_v44 (F := Ideal) x0 x1 x2 x3 = hidden (first x0 x2) x1 x3 := rfl

/-- The reference's result is the second layer of its second product. -/
theorem stage_out (x0 : FVec Ideal S50000x512 .f32) (x1 : IVec S2x800000 32) (x2 : FVec Ideal S512x128 .f32) (x3 : FVec Ideal S128 .f32) (x4 : FVec Ideal S128x40 .f32) (x5 : FVec Ideal S40 .f32) :
    val_main_v81 (F := Ideal) x0 x1 x2 x3 x4 x5 = out (second (val_main_v44 (F := Ideal) x0 x1 x2 x3) x4) x1 x5 := rfl

/-- The coefficients the reference computes for its second layer are those of its first. -/
theorem coef_again (e : IVec S2x800000 32) : val_main_v65 (F := Ideal) e = val_main_v27 (F := Ideal) e := rfl

/-- So the broadcast of the second layer's coefficients is the broadcast of the first's, along 40 columns. -/
theorem coef_cols40 (e : IVec S2x800000 32) :
    val_main_v74 (F := Ideal) e = broadcastInDim S850000x40 ![0, 1] bcast_S850000x1_S850000x40_0_1
      (broadcastInDim S850000x1 ![0] bcast_S850000_S850000x1_0 (val_main_v27 (F := Ideal) e)) := rfl

end Cert.ReferenceIdeal.Layers

end
-- ==== Proof.HostChain.lean ====
/-
  The kernel program's host stretches, read at any contents `V` of the buffers they start from.

  Before the first product the program builds, from the edge list alone, the row and column halves with the
  self loops appended and the normalisation coefficients (rsqrt of the in-degrees gathered at both ends and
  multiplied): the same operations the reference applies, so each is the reference's stage of the edge list.
  Between the two products it applies the first layer to the first product (gather, scale, scatter-add, bias,
  maximum with zero), after the second product the second layer: `Layers.hidden` and `Layers.out` of the
  product buffer, the edge list and the bias, whenever the row, column and coefficient buffers hold the stages
  of the edge list.  A buffer a stretch does not write keeps its contents.
-/
import proofs.«170224_j34282428957176_1_alg».proof.Proof.Gen.KernelIdeal.Launch
import proofs.«170224_j34282428957176_1_alg».proof.Proof.Layers
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.Read Cert.ReferenceIdeal.Layers

/-! ## What each stretch leaves alone -/

/-- The buffers the stretch writes. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_cst_0, main_c, main_c_1, main_c_2, main_c_3]
theorem hostOps0_writes : (hostOps0 : List (HloOp τ sig (Elt Ideal))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents. -/
theorem hostOps0_keep (V : Valuation τ sig (Elt Ideal)) (r : Ref sig .tc) (h : r ∉ hostOps0_W) :
    after (hostOps0 (F := Ideal)) V (Proc.devRef .tc r) = V (Proc.devRef .tc r) :=
  after_of_writes_sub hostOps0 V hostOps0_writes h

/-- The buffers the stretch writes. -/
abbrev hostOps1_W : List (Ref sig .tc) := [main_v28, main_v29, main_v30, main_v31, main_v32, main_v33, main_v34, main_v35, main_v36, main_v37, main_v38, main_v39, main_v40, main_v41, main_v42, main_v43, main_c_4, main_c_5, main_cst_6]
theorem hostOps1_writes : (hostOps1 : List (HloOp τ sig (Elt Ideal))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents. -/
theorem hostOps1_keep (V : Valuation τ sig (Elt Ideal)) (r : Ref sig .tc) (h : r ∉ hostOps1_W) :
    after (hostOps1 (F := Ideal)) V (Proc.devRef .tc r) = V (Proc.devRef .tc r) :=
  after_of_writes_sub hostOps1 V hostOps1_writes h

/-- The buffers the stretch writes. -/
abbrev hostOps1_1_W : List (Ref sig .tc) := [main_call0_cst, main_call0_v0, main_v44]
theorem hostOps1_1_writes : (hostOps1_1 : List (HloOp τ sig (Elt Ideal))).Forall fun op => op.writes ⊆ (hostOps1_1_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents. -/
theorem hostOps1_1_keep (V : Valuation τ sig (Elt Ideal)) (r : Ref sig .tc) (h : r ∉ hostOps1_1_W) :
    after (hostOps1_1 (F := Ideal)) V (Proc.devRef .tc r) = V (Proc.devRef .tc r) :=
  after_of_writes_sub hostOps1_1 V hostOps1_1_writes h

/-- The buffers the stretch writes. -/
abbrev hostOps2_W : List (Ref sig .tc) := [main_v46, main_v47, main_v48, main_v49, main_v50, main_v51, main_v52, main_v53, main_v54, main_v55, main_v56, main_v57, main_v58, main_v59, main_v60, main_v61, main_c_7, main_c_8, main_cst_9]
theorem hostOps2_writes : (hostOps2 : List (HloOp τ sig (Elt Ideal))).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer the stretch does not write keeps its contents. -/
theorem hostOps2_keep (V : Valuation τ sig (Elt Ideal)) (r : Ref sig .tc) (h : r ∉ hostOps2_W) :
    after (hostOps2 (F := Ideal)) V (Proc.devRef .tc r) = V (Proc.devRef .tc r) :=
  after_of_writes_sub hostOps2 V hostOps2_writes h

/-! ## What each stretch computes -/

variable (V : Valuation τ sig (Elt Ideal))

/-- The row half of the edge list with the self loops appended. -/
theorem pre_rows : after (hostOps0 (F := Ideal)) V (Proc.devRef .tc main_v3) = val_main_v3 (F := Ideal) (V (Proc.devRef .tc main_arg1)) := by
  after_results_simp <;> rfl

/-- The column half of the edge list with the self loops appended. -/
theorem pre_cols : after (hostOps0 (F := Ideal)) V (Proc.devRef .tc main_v6) = val_main_v6 (F := Ideal) (V (Proc.devRef .tc main_arg1)) := by
  after_results_simp <;> rfl

/-- The normalisation coefficient of every edge. -/
theorem pre_coef : after (hostOps0 (F := Ideal)) V (Proc.devRef .tc main_v26) = val_main_v27 (F := Ideal) (V (Proc.devRef .tc main_arg1)) := by
  after_results_simp <;> rfl

/-- Between the products, before the rectifier: aggregate the first product's buffer over the edges, add the bias. -/
theorem mid_pre (e : IVec Cert.ReferenceIdeal.S2x800000 32)
    (h3 : V (Proc.devRef .tc main_v3) = val_main_v3 (F := Ideal) e) (h6 : V (Proc.devRef .tc main_v6) = val_main_v6 (F := Ideal) e)
    (h26 : V (Proc.devRef .tc main_v26) = val_main_v27 (F := Ideal) e) :
    after (hostOps1 (F := Ideal)) V (Proc.devRef .tc main_v43)
      = preact (V (Proc.devRef .tc main_v27)) e (V (Proc.devRef .tc main_arg3)) := by
  after_results_simp
  rw [h3, h6, h26]
  rfl

/-- The rectifier's three operations: the maximum with zero of the buffer they read. -/
theorem mid_relu : after (hostOps1_1 (F := Ideal)) V (Proc.devRef .tc main_v44) = relu (V (Proc.devRef .tc main_v43)) := by
  after_results_simp <;> rfl

/-- Between the products: the first layer of the first product's buffer. -/
theorem mid_hidden (e : IVec Cert.ReferenceIdeal.S2x800000 32)
    (h3 : V (Proc.devRef .tc main_v3) = val_main_v3 (F := Ideal) e) (h6 : V (Proc.devRef .tc main_v6) = val_main_v6 (F := Ideal) e)
    (h26 : V (Proc.devRef .tc main_v26) = val_main_v27 (F := Ideal) e) :
    after (hostOps1_1 (F := Ideal)) (after (hostOps1 (F := Ideal)) V) (Proc.devRef .tc main_v44)
      = hidden (V (Proc.devRef .tc main_v27)) e (V (Proc.devRef .tc main_arg3)) :=
  (mid_relu (after (hostOps1 (F := Ideal)) V)).trans (congrArg relu (mid_pre V e h3 h6 h26))

/-- After the second product: the second layer of the second product's buffer. -/
theorem tail_out (e : IVec Cert.ReferenceIdeal.S2x800000 32)
    (h3 : V (Proc.devRef .tc main_v3) = val_main_v3 (F := Ideal) e) (h6 : V (Proc.devRef .tc main_v6) = val_main_v6 (F := Ideal) e)
    (h26 : V (Proc.devRef .tc main_v26) = val_main_v27 (F := Ideal) e) :
    after (hostOps2 (F := Ideal)) V (Proc.devRef .tc main_v61)
      = out (V (Proc.devRef .tc main_v45)) e (V (Proc.devRef .tc main_arg5)) := by
  after_results_simp
  rw [h3, h6, h26]
  rfl

end Cert.KernelIdeal.HostChain

end
-- ==== Proof.KernelValue.lean ====
/-
  What the kernel program's result buffer holds at the end, as a function of the launch memory.

  Walking the boundaries of the run from the launch (`Gen.W0`) to the end (`Gen.W6`):
    • after the first host stretch the row, column and coefficient buffers hold the reference's stages of the
      edge list, and the argument arrays are as launched;
    • the first blocked product leaves the whole product of the features and the first weights in its result
      buffer and changes nothing else;
    • the middle stretches leave the first layer of that product in the hidden-feature buffer;
    • the second blocked product leaves the whole product of the hidden features and the second weights;
    • the last stretch leaves the second layer of that product in the result buffer.
  Composed, the result is  out (second (hidden (first x W₁) e b₁) W₂) e b₂,  the reference's last stage of the
  six argument arrays.
-/
import proofs.«170224_j34282428957176_1_alg».proof.Proof.Gen.KernelIdeal.Frame
import proofs.«170224_j34282428957176_1_alg».proof.Proof.Region0
import proofs.«170224_j34282428957176_1_alg».proof.Proof.Region1
import proofs.«170224_j34282428957176_1_alg».proof.Proof.HostChain

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read Cert.ReferenceIdeal.Layers Cert.ReferenceIdeal.Products

variable (m : (ℓ : Loc nD τ sig) → Buf (Elt Ideal) ℓ) (ρ : Dev nD → PrngReg) (c : Dev nD)

/-! ## At the first product's entry -/

theorem entry0_arg0 : W1 m ρ c (Proc.devRef .tc main_arg0) = m ((c : Thread nD τ).loc main_arg0) :=
  (HostChain.hostOps0_keep (W0 m ρ c) main_arg0 (by decide)).trans rfl
theorem entry0_arg2 : W1 m ρ c (Proc.devRef .tc main_arg2) = m ((c : Thread nD τ).loc main_arg2) :=
  (HostChain.hostOps0_keep (W0 m ρ c) main_arg2 (by decide)).trans rfl
theorem entry0_arg3 : W1 m ρ c (Proc.devRef .tc main_arg3) = m ((c : Thread nD τ).loc main_arg3) :=
  (HostChain.hostOps0_keep (W0 m ρ c) main_arg3 (by decide)).trans rfl
theorem entry0_arg4 : W1 m ρ c (Proc.devRef .tc main_arg4) = m ((c : Thread nD τ).loc main_arg4) :=
  (HostChain.hostOps0_keep (W0 m ρ c) main_arg4 (by decide)).trans rfl
theorem entry0_arg5 : W1 m ρ c (Proc.devRef .tc main_arg5) = m ((c : Thread nD τ).loc main_arg5) :=
  (HostChain.hostOps0_keep (W0 m ρ c) main_arg5 (by decide)).trans rfl
theorem entry0_rows : W1 m ρ c (Proc.devRef .tc main_v3) = val_main_v3 (F := Ideal) (m ((c : Thread nD τ).loc main_arg1)) :=
  (HostChain.pre_rows (W0 m ρ c)).trans rfl
theorem entry0_cols : W1 m ρ c (Proc.devRef .tc main_v6) = val_main_v6 (F := Ideal) (m ((c : Thread nD τ).loc main_arg1)) :=
  (HostChain.pre_cols (W0 m ρ c)).trans rfl
theorem entry0_coef : W1 m ρ c (Proc.devRef .tc main_v26) = val_main_v27 (F := Ideal) (m ((c : Thread nD τ).loc main_arg1)) :=
  (HostChain.pre_coef (W0 m ρ c)).trans rfl

/-! ## At the first product's exit -/

theorem exit0_product : W2 m ρ c (Proc.devRef .tc main_v27)
    = first (m ((c : Thread nD τ).loc main_arg0)) (m ((c : Thread nD τ).loc main_arg2)) := by
  refine (W2_arr m ρ c 2).trans ((Region0.result (V1 m ρ) c).trans ?_)
  show first (W1 m ρ c (Proc.devRef .tc main_arg0)) (W1 m ρ c (Proc.devRef .tc main_arg2)) = _
  rw [entry0_arg0, entry0_arg2]
theorem exit0_rows : W2 m ρ c (Proc.devRef .tc main_v3) = val_main_v3 (F := Ideal) (m ((c : Thread nD τ).loc main_arg1)) :=
  (W2_of_ne m ρ c main_v3 (by decide)).trans (entry0_rows m ρ c)
theorem exit0_cols : W2 m ρ c (Proc.devRef .tc main_v6) = val_main_v6 (F := Ideal) (m ((c : Thread nD τ).loc main_arg1)) :=
  (W2_of_ne m ρ c main_v6 (by decide)).trans (entry0_cols m ρ c)
theorem exit0_coef : W2 m ρ c (Proc.devRef .tc main_v26) = val_main_v27 (F := Ideal) (m ((c : Thread nD τ).loc main_arg1)) :=
  (W2_of_ne m ρ c main_v26 (by decide)).trans (entry0_coef m ρ c)
theorem exit0_arg3 : W2 m ρ c (Proc.devRef .tc main_arg3) = m ((c : Thread nD τ).loc main_arg3) :=
  (W2_of_ne m ρ c main_arg3 (by decide)).trans (entry0_arg3 m ρ c)
theorem exit0_arg4 : W2 m ρ c (Proc.devRef .tc main_arg4) = m ((c : Thread nD τ).loc main_arg4) :=
  (W2_of_ne m ρ c main_arg4 (by decide)).trans (entry0_arg4 m ρ c)
theorem exit0_arg5 : W2 m ρ c (Proc.devRef .tc main_arg5) = m ((c : Thread nD τ).loc main_arg5) :=
  (W2_of_ne m ρ c main_arg5 (by decide)).trans (entry0_arg5 m ρ c)

/-! ## At the second product's entry -/

/-- A buffer the two middle stretches do not write is as at the first product's exit. -/
theorem entry1_keep (r : Ref sig .tc) (h1 : r ∉ HostChain.hostOps1_W) (h2 : r ∉ HostChain.hostOps1_1_W) :
    W4 m ρ c (Proc.devRef .tc r) = W2 m ρ c (Proc.devRef .tc r) :=
  (HostChain.hostOps1_1_keep (W3 m ρ c) r h2).trans (HostChain.hostOps1_keep (W2 m ρ c) r h1)

theorem entry1_hidden : W4 m ρ c (Proc.devRef .tc main_v44)
    = hidden (first (m ((c : Thread nD τ).loc main_arg0)) (m ((c : Thread nD τ).loc main_arg2)))
        (m ((c : Thread nD τ).loc main_arg1)) (m ((c : Thread nD τ).loc main_arg3)) := by
  refine (HostChain.mid_hidden (W2 m ρ c) (m ((c : Thread nD τ).loc main_arg1)) (exit0_rows m ρ c) (exit0_cols m ρ c) (exit0_coef m ρ c)).trans ?_
  rw [exit0_product, exit0_arg3]

/-! ## At the second product's exit -/

theorem exit1_product : W5 m ρ c (Proc.devRef .tc main_v45)
    = second (hidden (first (m ((c : Thread nD τ).loc main_arg0)) (m ((c : Thread nD τ).loc main_arg2)))
        (m ((c : Thread nD τ).loc main_arg1)) (m ((c : Thread nD τ).loc main_arg3))) (m ((c : Thread nD τ).loc main_arg4)) := by
  refine (W5_arr m ρ c 2).trans ((Region1.result (V4 m ρ) c).trans ?_)
  show second (W4 m ρ c (Proc.devRef .tc main_v44)) (W4 m ρ c (Proc.devRef .tc main_arg4)) = _
  rw [entry1_hidden, entry1_keep m ρ c main_arg4 (by decide) (by decide), exit0_arg4]
theorem exit1_rows : W5 m ρ c (Proc.devRef .tc main_v3) = val_main_v3 (F := Ideal) (m ((c : Thread nD τ).loc main_arg1)) :=
  (W5_of_ne m ρ c main_v3 (by decide)).trans ((entry1_keep m ρ c main_v3 (by decide) (by decide)).trans (exit0_rows m ρ c))
theorem exit1_cols : W5 m ρ c (Proc.devRef .tc main_v6) = val_main_v6 (F := Ideal) (m ((c : Thread nD τ).loc main_arg1)) :=
  (W5_of_ne m ρ c main_v6 (by decide)).trans ((entry1_keep m ρ c main_v6 (by decide) (by decide)).trans (exit0_cols m ρ c))
theorem exit1_coef : W5 m ρ c (Proc.devRef .tc main_v26) = val_main_v27 (F := Ideal) (m ((c : Thread nD τ).loc main_arg1)) :=
  (W5_of_ne m ρ c main_v26 (by decide)).trans ((entry1_keep m ρ c main_v26 (by decide) (by decide)).trans (exit0_coef m ρ c))
theorem exit1_arg5 : W5 m ρ c (Proc.devRef .tc main_arg5) = m ((c : Thread nD τ).loc main_arg5) :=
  (W5_of_ne m ρ c main_arg5 (by decide)).trans ((entry1_keep m ρ c main_arg5 (by decide) (by decide)).trans (exit0_arg5 m ρ c))

/-! ## At the end -/

/-- The result buffer at the end is the reference's last stage of the six argument arrays. -/
theorem result : W6 m ρ c (Proc.devRef .tc main_v61)
    = val_main_v81 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (HostChain.tail_out (W5 m ρ c) (m ((c : Thread nD τ).loc main_arg1)) (exit1_rows m ρ c) (exit1_cols m ρ c) (exit1_coef m ρ c)).trans ?_
  rw [exit1_product, exit1_arg5, stage_out, stage_hidden]

end Cert.KernelIdeal.Result

end
-- ==== Proof.lean ====
/-
  A two-layer graph convolution: the kernel program against its reference, on the extended reals.

  Both programs take node features x (50000 × 512), an edge list e (2 × 800000), weights W₁ (512 × 128),
  W₂ (128 × 40) and biases b₁, b₂.  With the self loops appended to e, deg the in-degree of each node and
  coef j = rsqrt (deg (row j)) · rsqrt (deg (col j)) for every edge j, a layer maps a feature matrix h to
      A h b = (scatter-add over row of (gather of h at col, scaled by coef)) + b,
  and the result is   A (max (A (x·W₁) b₁) 0 · W₂) b₂.
  The reference takes the two products by `dot_general`.  The kernel program takes each in a pallas_call of 25
  grid points, point t multiplying rows 2000·t … 2000·t + 1999 of the left matrix by the whole weight matrix
  (the operands cast to bf16 first, which on the extended reals is the identity, and accumulated into zero);
  everything around the products is the same host operations in both programs.

  • Each blocked product writes the whole product (Proof/Region0.lean, Proof/Region1.lean over the block
    reading Proof/BlockProduct0.lean, Proof/BlockProduct1.lean and the reference's products read at an entry,
    Proof/RefProduct.lean): entry (2000·t + p, q) is ∑ k, left (2000·t + p, k) · W (k, q) on both sides.
  • The host stretches of the kernel program are the reference's layers (Proof/Layers.lean,
    Proof/HostChain.lean), so the result buffer ends at the reference's last stage of the six arguments
    (Proof/KernelValue.lean over the run with its result named, Proof/KernelRun.lean).
  No property of the inputs is used: the equality holds entry by entry at every extended-real input, because
  the two sides are the same sums of the same products in the same arrangement.
  The frames of the two kernel programs are the generated ones; the reference's frame is its generated run
  with the result dropped; the ideal pass rewrote nothing, so `preserves` is `True`.
-/
import proofs.«170224_j34282428957176_1_alg».proof.Defs
import proofs.«170224_j34282428957176_1_alg».proof.Proof.Gen.Kernel
import proofs.«170224_j34282428957176_1_alg».proof.Proof.Gen.Kernel.Frame
import proofs.«170224_j34282428957176_1_alg».proof.Proof.Gen.KernelIdeal
import proofs.«170224_j34282428957176_1_alg».proof.Proof.Gen.KernelIdeal.Frame
import proofs.«170224_j34282428957176_1_alg».proof.Proof.Gen.ReferenceIdeal
import proofs.«170224_j34282428957176_1_alg».proof.Proof.Gen.ReferenceIdeal.Run
import proofs.«170224_j34282428957176_1_alg».proof.Proof.Gen.ReferenceIdeal.Read
import proofs.«170224_j34282428957176_1_alg».proof.Proof.Gen.Pre_finite_inputs
import proofs.«170224_j34282428957176_1_alg».proof.Proof.KernelRun
import proofs.«170224_j34282428957176_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's last stage of the (agreeing) argument arrays in their result. -/
theorem algebraic : Cert.algebraic_KernelIdeal_ReferenceIdeal := by
  intro m ρ m' ρ' _ hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Result.result m ρ c), (h c).2⟩)
      (Cert.KernelIdeal.Named.run_named (F := Ideal) m ρ)
  · refine (θ_run Cert.ReferenceIdeal.defs _ _).mono (fun r h c => ⟨?_, (h c).2⟩) (Cert.ReferenceIdeal.Value.run (F := Ideal) m' ρ')
    obtain ⟨a0, a1, a2, a3, a4, a5⟩ := hagree c
    refine (h c).1.trans ((Cert.ReferenceIdeal.Read.val_main_v81_eq m' c).trans ?_)
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
